-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x32x128 : Shape := ⟨3, ![50000, 32, 128]⟩
abbrev S50000x32 : Shape := ⟨2, ![50000, 32]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x32x128 : S_.BroadcastsInDim S50000x32x128 (![] : Fin 0 → Fin S50000x32x128.rank)
  reducesTo_S50000x32x128_S_d0_1_2 : S50000x32x128.ReducesTo [0, 1, 2] S_
  bcast_S_S50000x32 : S_.BroadcastsInDim S50000x32 (![] : Fin 0 → Fin S50000x32.rank)
  reducesTo_S50000x32_S_d0_1 : S50000x32.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S50000x32 .f32) (main_arg5 : FVec F S256x1 .f32) (main_arg6 : FVec F S1 .f32) (main_v13 : IVec S_ 1) (main_v16 : IVec S50000x32 1) : IVec S_ 1 :=
  let main_c_5 : IVec S_ 1 := constantI S_ 1 1#1
  let main_v17 : IVec S_ 1 := (fun x v => Host.reduce IntOp.andi x v reducesTo_S50000x32_S_d0_1 h_S_) main_v16 main_c_5
  let main_v18 : IVec S_ 1 := andi main_v13 main_v17
  let main_v19 : FVec F S50000x32 .f32 := Host.absf main_arg4
  let main_cst_6 : FVec F S_ .f32 := constant S_ .f32 0x7F800000#32
  let main_v20 : FVec F S50000x32 .f32 := broadcastInDim S50000x32 ![] bcast_S_S50000x32 main_cst_6
  let main_v21 : IVec S50000x32 1 := cmpf .olt main_v19 main_v20
  let main_c_7 : IVec S_ 1 := constantI S_ 1 1#1
  let main_v22 : IVec S_ 1 := (fun x v => Host.reduce IntOp.andi x v reducesTo_S50000x32_S_d0_1 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : FVec F S50000x32x128 .f32) (main_arg2 : FVec F S50000x128 .f32) (main_arg3 : FVec F S50000x32 .f32) (main_arg4 : FVec F S50000x32 .f32) (main_arg5 : FVec F S256x1 .f32) (main_arg6 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x32x128 .f32 := Host.absf main_arg1
  let main_cst_0 : FVec F S_ .f32 := constant S_ .f32 0x7F800000#32
  let main_v5 : FVec F S50000x32x128 .f32 := broadcastInDim S50000x32x128 ![] bcast_S_S50000x32x128 main_cst_0
  let main_v6 : IVec S50000x32x128 1 := cmpf .olt main_v4 main_v5
  let main_c_1 : IVec S_ 1 := constantI S_ 1 1#1
  let main_v7 : IVec S_ 1 := (fun x v => Host.reduce IntOp.andi x v reducesTo_S50000x32x128_S_d0_1_2 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S50000x32 .f32 := Host.absf main_arg3
  let main_cst_4 : FVec F S_ .f32 := constant S_ .f32 0x7F800000#32
  let main_v15 : FVec F S50000x32 .f32 := broadcastInDim S50000x32 ![] bcast_S_S50000x32 main_cst_4
  let main_v16 : IVec S50000x32 1 := cmpf .olt main_v14 main_v15
  fn_part1 (F := F) main_arg4 main_arg5 main_arg6 main_v13 main_v16
-- ==== Kernel.lean ====
abbrev S50000x128 : Shape := ⟨2, ![50000, 128]⟩
abbrev S50000x32x128 : Shape := ⟨3, ![50000, 32, 128]⟩
abbrev S50000x32 : Shape := ⟨2, ![50000, 32]⟩
abbrev S256x1 : Shape := ⟨2, ![256, 1]⟩
abbrev S1 : Shape := ⟨1, ![1]⟩
abbrev S128x1 : Shape := ⟨2, ![128, 1]⟩
abbrev S1x128 : Shape := ⟨2, ![1, 128]⟩
abbrev S1x1 : Shape := ⟨2, ![1, 1]⟩
abbrev S512x32x128 : Shape := ⟨3, ![512, 32, 128]⟩
abbrev S512x128 : Shape := ⟨2, ![512, 128]⟩
abbrev S512x32 : Shape := ⟨2, ![512, 32]⟩
abbrev S1x1x128 : Shape := ⟨3, ![1, 1, 128]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S50000x32x128, .f32⟩
  | .hbm, ⟨2, _⟩ => ⟨S50000x128, .f32⟩
  | .hbm, ⟨3, _⟩ => ⟨S50000x32, .f32⟩
  | .hbm, ⟨4, _⟩ => ⟨S50000x32, .f32⟩
  | .hbm, ⟨5, _⟩ => ⟨S256x1, .f32⟩
  | .hbm, ⟨6, _⟩ => ⟨S1, .f32⟩
  | .hbm, ⟨7, _⟩ => ⟨S128x1, .f32⟩
  | .hbm, ⟨8, _⟩ => ⟨S1x128, .f32⟩
  | .hbm, ⟨9, _⟩ => ⟨S128x1, .f32⟩
  | .hbm, ⟨10, _⟩ => ⟨S1x128, .f32⟩
  | .hbm, ⟨11, _⟩ => ⟨S1x1, .f32⟩
  | .hbm, ⟨12, _⟩ => ⟨S50000x32, .f32⟩
  | .local _ .vmem, ⟨0, _⟩ => ⟨S512x32x128, .f32⟩
  | .local _ .vmem, ⟨1, _⟩ => ⟨S512x32x128, .f32⟩
  | .local _ .vmem, ⟨2, _⟩ => ⟨S512x128, .f32⟩
  | .local _ .vmem, ⟨3, _⟩ => ⟨S512x128, .f32⟩
  | .local _ .vmem, ⟨4, _⟩ => ⟨S512x32, .f32⟩
  | .local _ .vmem, ⟨5, _⟩ => ⟨S512x32, .f32⟩
  | .local _ .vmem, ⟨6, _⟩ => ⟨S1x128, .f32⟩
  | .local _ .vmem, ⟨7, _⟩ => ⟨S1x128, .f32⟩
  | .local _ .vmem, ⟨8, _⟩ => ⟨S1x1, .f32⟩
  | .local _ .vmem, ⟨9, _⟩ => ⟨S512x32, .f32⟩
  | .local _ .vmem, ⟨10, _⟩ => ⟨S512x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![98], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S256x1_S128x1_0_0 : S256x1.Slices ![0, 0] S128x1
  shapeCasts_S128x1_S1x128 : S128x1.ShapeCasts S1x128
  slices_S256x1_S128x1_128_0 : S256x1.Slices ![128, 0] S128x1
  shapeCasts_S1_S1x1 : S1.ShapeCasts S1x1
  inb_S512x32x128_S512x32x128_0_0_0 : ∀ a, (![0, 0, 0] : Fin 3 → Nat) a + S512x32x128.size a ≤ S512x32x128.size a
  h_S512x32x128 : 0 < S512x32x128.numel
  inb_S512x128_S512x128_0_0 : ∀ a, (![0, 0] : Fin 2 → Nat) a + S512x128.size a ≤ S512x128.size a
  h_S512x128 : 0 < S512x128.numel
  inb_S512x32_S512x32_0_0 : ∀ a, (![0, 0] : Fin 2 → Nat) a + S512x32.size a ≤ S512x32.size a
  h_S512x32 : 0 < S512x32.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1x128_S512x32x128 : S1x1x128.Broadcasts S512x32x128
  reduces_S512x32x128_S512x32 : S512x32x128.Reduces [2] S512x32
  broadcasts_S1x128_S512x128 : S1x128.Broadcasts S512x128
  reduces_S512x128_S512 : S512x128.Reduces [1] S512
  shapeCasts_S512_S512x1 : S512.ShapeCasts S512x1
  broadcasts_S512x1_S512x32 : S512x1.Broadcasts S512x32
  broadcasts_S1x1_S512x32 : S1x1.Broadcasts S512x32
  reduces_S512x32_S512 : S512x32.Reduces [1] S512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x32x128.size a < S50000x32x128.size a
  hwx0_0 : ∀ i : grid0.Coords, EltTy.bits .f32 = 32 ∨ (Rect.unit (s := S50000x32x128) (fun a => cc0_transform_0 i a * S512x32x128.size a) (fun a => (Pipeline.Clip.of (cc0_transform_0 i a) (S512x32x128.size a) (S50000x32x128.size a)).extent (S512x32x128.size a)) fun a => Pipeline.Clip.inb (Pipeline.Clip.ok_of (hstart0_0 i a))).WholeWords (EltTy.packing .f32)
  hwxs0_0 : ∀ i : grid0.Coords, EltTy.bits .f32 = 32 ∨ (Rect.unit (s := S512x32x128) (fun _ => 0) (fun a => (Pipeline.Clip.of (cc0_transform_0 i a) (S512x32x128.size a) (S50000x32x128.size a)).extent (S512x32x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x128.size a < S50000x128.size a
  hwx0_1 : ∀ i : grid0.Coords, EltTy.bits .f32 = 32 ∨ (Rect.unit (s := S50000x128) (fun a => cc0_transform_1 i a * S512x128.size a) (fun a => (Pipeline.Clip.of (cc0_transform_1 i a) (S512x128.size a) (S50000x128.size a)).extent (S512x128.size a)) fun a => Pipeline.Clip.inb (Pipeline.Clip.ok_of (hstart0_1 i a))).WholeWords (EltTy.packing .f32)
  hwxs0_1 : ∀ i : grid0.Coords, EltTy.bits .f32 = 32 ∨ (Rect.unit (s := S512x128) (fun _ => 0) (fun a => (Pipeline.Clip.of (cc0_transform_1 i a) (S512x128.size a) (S50000x128.size a)).extent (S512x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S512x32.size a < S50000x32.size a
  hwx0_2 : ∀ i : grid0.Coords, EltTy.bits .f32 = 32 ∨ (Rect.unit (s := S50000x32) (fun a => cc0_transform_2 i a * S512x32.size a) (fun a => (Pipeline.Clip.of (cc0_transform_2 i a) (S512x32.size a) (S50000x32.size a)).extent (S512x32.size a)) fun a => Pipeline.Clip.inb (Pipeline.Clip.ok_of (hstart0_2 i a))).WholeWords (EltTy.packing .f32)
  hwxs0_2 : ∀ i : grid0.Coords, EltTy.bits .f32 = 32 ∨ (Rect.unit (s := S512x32) (fun _ => 0) (fun a => (Pipeline.Clip.of (cc0_transform_2 i a) (S512x32.size a) (S50000x32.size a)).extent (S512x32.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S512x32.size a < S50000x32.size a
  hwx0_6 : ∀ i : grid0.Coords, EltTy.bits .f32 = 32 ∨ (Rect.unit (s := S50000x32) (fun a => cc0_transform_6 i a * S512x32.size a) (fun a => (Pipeline.Clip.of (cc0_transform_6 i a) (S512x32.size a) (S50000x32.size a)).extent (S512x32.size a)) fun a => Pipeline.Clip.inb (Pipeline.Clip.ok_of (hstart0_6 i a))).WholeWords (EltTy.packing .f32)
  hwxs0_6 : ∀ i : grid0.Coords, EltTy.bits .f32 = 32 ∨ (Rect.unit (s := S512x32) (fun _ => 0) (fun a => (Pipeline.Clip.of (cc0_transform_6 i a) (S512x32.size a) (S50000x32.size a)).extent (S512x32.size a)) fun a => (Nat.zero_add _).trans_le (Pipeline.Clip.extent_le (Pipeline.Clip.ok_of (hstart0_6 i a)))).WholeWords (EltTy.packing .f32)

variable [Facts₀]

abbrev win0_0 : Pipeline.Window sig grid0 :=
  Pipeline.Window.ofSpecClip (Memref.whole main_arg1) S512x32x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg2) S512x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg4) S512x32.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_v5) S512x32.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x32x128 : Shape := ⟨3, ![50000, 32, 128]⟩
abbrev S50000x32 : Shape := ⟨2, ![50000, 32]⟩
abbrev S256x1 : Shape := ⟨2, ![256, 1]⟩
abbrev S1 : Shape := ⟨1, ![1]⟩
abbrev S128x1 : Shape := ⟨2, ![128, 1]⟩
abbrev S50000x32x1 : Shape := ⟨3, ![50000, 32, 1]⟩
abbrev S50000x1 : Shape := ⟨2, ![50000, 1]⟩
abbrev S50000x1x1 : Shape := ⟨3, ![50000, 1, 1]⟩
abbrev S1x1x1 : Shape := ⟨3, ![1, 1, 1]⟩
abbrev S_ : Shape := ⟨0, ![]⟩
abbrev S50000 : Shape := ⟨1, ![50000]⟩

abbrev nBuf : Space → Nat
  | .hbm => 42
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x32x128, .f32⟩
  | .hbm, ⟨2, _⟩ => ⟨S50000x128, .f32⟩
  | .hbm, ⟨3, _⟩ => ⟨S50000x32, .f32⟩
  | .hbm, ⟨4, _⟩ => ⟨S50000x32, .f32⟩
  | .hbm, ⟨5, _⟩ => ⟨S256x1, .f32⟩
  | .hbm, ⟨6, _⟩ => ⟨S1, .f32⟩
  | .hbm, ⟨7, _⟩ => ⟨S128x1, .f32⟩
  | .hbm, ⟨8, _⟩ => ⟨S128x1, .f32⟩
  | .hbm, ⟨9, _⟩ => ⟨S50000x32x1, .f32⟩
  | .hbm, ⟨10, _⟩ => ⟨S50000x1, .f32⟩
  | .hbm, ⟨11, _⟩ => ⟨S50000x1x1, .f32⟩
  | .hbm, ⟨12, _⟩ => ⟨S50000x32x1, .f32⟩
  | .hbm, ⟨13, _⟩ => ⟨S50000x32x1, .f32⟩
  | .hbm, ⟨14, _⟩ => ⟨S1x1x1, .f32⟩
  | .hbm, ⟨15, _⟩ => ⟨S50000x32x1, .f32⟩
  | .hbm, ⟨16, _⟩ => ⟨S50000x32x1, .f32⟩
  | .hbm, ⟨17, _⟩ => ⟨S50000x32x1, .f32⟩
  | .hbm, ⟨18, _⟩ => ⟨S50000x32x1, .f32⟩
  | .hbm, ⟨19, _⟩ => ⟨S_, .f32⟩
  | .hbm, ⟨20, _⟩ => ⟨S50000x32x1, .f32⟩
  | .hbm, ⟨21, _⟩ => ⟨S50000x32x1, .f32⟩
  | .hbm, ⟨22, _⟩ => ⟨S_, .f32⟩
  | .hbm, ⟨23, _⟩ => ⟨S50000x32x1, .f32⟩
  | .hbm, ⟨24, _⟩ => ⟨S50000x32x1, .f32⟩
  | .hbm, ⟨25, _⟩ => ⟨S_, .f32⟩
  | .hbm, ⟨26, _⟩ => ⟨S50000x32, .f32⟩
  | .hbm, ⟨27, _⟩ => ⟨S50000x32, .f32⟩
  | .hbm, ⟨28, _⟩ => ⟨S_, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x32, .f32⟩
  | .hbm, ⟨35, _⟩ => ⟨S50000x32, .f32⟩
  | .hbm, ⟨36, _⟩ => ⟨S50000x32, .f32⟩
  | .hbm, ⟨37, _⟩ => ⟨S_, .f32⟩
  | .hbm, ⟨38, _⟩ => ⟨S50000, .f32⟩
  | .hbm, ⟨39, _⟩ => ⟨S50000x1, .f32⟩
  | .hbm, ⟨40, _⟩ => ⟨S50000x32, .f32⟩
  | .hbm, ⟨41, _⟩ => ⟨S50000x32, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  slices_S256x1_S128x1_0_0 : S256x1.Slices ![0, 0] S128x1
  slices_S256x1_S128x1_128_0 : S256x1.Slices ![128, 0] S128x1
  bcast_S50000x1_S50000x1x1_0_2 : S50000x1.BroadcastsInDim S50000x1x1 (![0, 2] : Fin 2 → Fin S50000x1x1.rank)
  bcast_S50000x1x1_S50000x32x1_0_1_2 : S50000x1x1.BroadcastsInDim S50000x32x1 (![0, 1, 2] : Fin 3 → Fin S50000x32x1.rank)
  bcast_S1_S1x1x1_2 : S1.BroadcastsInDim S1x1x1 (![2] : Fin 1 → Fin S1x1x1.rank)
  bcast_S1x1x1_S50000x32x1_0_1_2 : S1x1x1.BroadcastsInDim S50000x32x1 (![0, 1, 2] : Fin 3 → Fin S50000x32x1.rank)
  bcast_S_S50000x32x1 : S_.BroadcastsInDim S50000x32x1 (![] : Fin 0 → Fin S50000x32x1.rank)
  reducesTo_S50000x32x1_S50000x32_d2 : S50000x32x1.ReducesTo [2] S50000x32
  h_S_ : 0 < S_.numel
  reducesTo_S50000x32_S50000_d1 : S50000x32.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  dot_S50000x32x128_S128x1_S50000x32x1_2_0_01_1_n_n_wf : DotDims.WF S50000x32x128 S128x1 S50000x32x1 [2] [0] [0, 1] [1] [] []
  dot_S50000x128_S128x1_S50000x1_1_0_0_1_n_n_wf : DotDims.WF S50000x128 S128x1 S50000x1 [1] [0] [0] [1] [] []

variable [Facts₀]

def dot_S50000x32x128_S128x1_S50000x32x1_2_0_01_1_n_n : DotDims S50000x32x128 S128x1 S50000x32x1 where
  lhsContracting := [2]
  rhsContracting := [0]
  lhsNonContracting := [0, 1]
  rhsNonContracting := [1]
  lhsBatch := []
  rhsBatch := []
  wf := dot_S50000x32x128_S128x1_S50000x32x1_2_0_01_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelBody.lean ====
/-
  The kernel body, run once on whole staging buffers, at any float instance: seven whole-buffer loads (the three
  row blocks, the two weight rows, the bias word, and a dead load of the result's buffer), one whole-buffer store.
  The result's buffer ends holding the store's value — the masked softmax of the row scores, as ONE pure function
  `scoreBlock` of what the six input buffers held — and the six input buffers end as they were.
-/
import proofs.«130472_j23003844837982_2_alg».proof.Proof.Gen.Kernel.Frame
import proofs.«130472_j23003844837982_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Facts₀ Facts

variable {F : FTy → Type} [FloatOps F]

local notation "𝕄" => MT nD τ sig Unit (Elt F) ℕ (UR sig nD τ) ℕ

/-! ## The whole-buffer rectangles the body reads and writes through -/

abbrev rNei : Rect S512x32x128 := Rect.unit (s := S512x32x128) ![0, 0, 0] S512x32x128.size Facts₀.inb_S512x32x128_S512x32x128_0_0_0
abbrev rSub : Rect S512x128 := Rect.unit (s := S512x128) ![0, 0] S512x128.size Facts₀.inb_S512x128_S512x128_0_0
abbrev rRow : Rect S512x32 := Rect.unit (s := S512x32) ![0, 0] S512x32.size Facts₀.inb_S512x32_S512x32_0_0
abbrev rW : Rect S1x128 := Rect.unit (s := S1x128) ![0, 0] S1x128.size Facts₀.inb_S1x128_S1x128_0_0
abbrev rB : Rect S1x1 := Rect.unit (s := S1x1) ![0, 0] S1x1.size Facts₀.inb_S1x1_S1x1_0_0

/-- What the result's buffer holds after the body, from what the six input buffers hold: the one store, through the
    whole-buffer rectangle, of the score payload of the six whole-buffer loads. -/
def scoreBlock (x0 : Vec F S512x32x128 .f32) (x1 : Vec F S512x128 .f32) (x2 : Vec F S512x32 .f32)
    (x3 x4 : Vec F S1x128 .f32) (x5 : Vec F S1x1 .f32) : Vec F S512x32 .f32 :=
  View.canon [⟨rRow, k0_pay1 (View.ld x0 rNei) (View.ld x1 rSub) (View.ld x2 rRow) (View.ld x3 rW) (View.ld x4 rW) (View.ld x5 rB)⟩]

/-- The one store's rectangle is the whole buffer. -/
theorem store_covers (p0 : Vec F S512x32 .f32) (y : S512x32.Idx) :
    ∃ pc ∈ ([⟨rRow, p0⟩] : List (View.Piece (Elt F) S512x32 .f32)), y ∈ pc.1.set :=
  View.cover_of_tiled [⟨rRow, p0⟩] S512x32.size (by rfl) y

set_option maxHeartbeats 1000000 in
/-- The body's triple, on any whole staging memrefs. -/
theorem body_triple (c : Dev nD) (E : Set ℕ) (i : grid0.Coords)
    (a1 : Memref sig .tc .vmem S512x32x128 .f32) (h1 : a1.IsWhole) (a2 : Memref sig .tc .vmem S512x128 .f32) (h2 : a2.IsWhole)
    (a3 : Memref sig .tc .vmem S512x32 .f32) (h3 : a3.IsWhole) (a4 : Memref sig .tc .vmem S1x128 .f32) (h4 : a4.IsWhole)
    (a5 : Memref sig .tc .vmem S1x128 .f32) (h5 : a5.IsWhole) (a6 : Memref sig .tc .vmem S1x1 .f32) (h6 : a6.IsWhole)
    (a7 : Memref sig .tc .vmem S512x32 .f32) (h7 : a7.IsWhole)
    (x0 : Vec F S512x32x128 .f32) (x1 : Vec F S512x128 .f32) (x2 : Vec F S512x32 .f32)
    (x3 x4 : Vec F S1x128 .f32) (x5 : Vec F S1x1 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (scoreBlock x0 x1 x2 x3 x4 x5)) -∗ K ⟨⟩))
      ⊢ wp frame (wpE (defs₀ (F := F)) Variants.none c none) E (cc0__score_kernel i a1 h1 a2 h2 a3 h3 a4 h4 a5 h5 a6 h6 a7 h7) K := by
  simp only [cc0__score_kernel_eq_skeleton]; unfold cc0__score_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (store_covers _)

end Cert.Kernel.Body

end
-- ==== Proof.KernelFrame.lean ====
/-
  The frame of the word-level program: it runs to the end, faults nowhere, and leaves its seven argument arrays as
  they were. The frame claim says nothing of the result array, so this run forgets what every staging buffer holds:
  each is handed to the body at some contents and taken back at some contents, which the body's triple gives at once.
  The three staged arguments (the neighbour rows, the sub-graph rows, the mask) are inputs of the pipeline, never
  written; the other four arguments are touched by no window and by no host operation before the region.
-/
import proofs.«130472_j23003844837982_2_alg».proof.Proof.KernelBody

set_option maxRecDepth 16384

noncomputable section

namespace Cert.Kernel.FrameRun

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window is forgotten. -/
abbrev allForgotten : Fin cfg0.W → Bool := fun _ => true

/-- The proof data: the arrays as the region finds them; the staging contents after the body are never read. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- The body at a point, every buffer at some contents before and after. -/
theorem body_at (c : Dev nD) (t : Fin cfg0.N) :
    iprop((dats m 0 c).Φ t.castSucc ∗ (dats m 0 c).owesAt () t.castSucc
      ∗ (∃ X, owns (c : Thread nD τ) (st0_0 t) fullShare X) ∗ (∃ X, owns (c : Thread nD τ) (st0_1 t) fullShare X)
      ∗ (∃ X, owns (c : Thread nD τ) (st0_2 t) fullShare X) ∗ (∃ X, owns (c : Thread nD τ) (st0_3 t) fullShare X)
      ∗ (∃ X, owns (c : Thread nD τ) (st0_4 t) fullShare X) ∗ (∃ X, owns (c : Thread nD τ) (st0_5 t) fullShare X)
      ∗ (∃ X, owns (c : Thread nD τ) (st0_6 t) fullShare X))
    ⊢ wp frame (wpE (defs₀ (F := F)) Variants.none c none) Set.univ (bodyAt0 t) (fun _ =>
      iprop((dats m 0 c).Φ t.succ ∗ (dats m 0 c).owesAt () t.succ
      ∗ (∃ X, owns (c : Thread nD τ) (st0_0 t) fullShare X) ∗ (∃ X, owns (c : Thread nD τ) (st0_1 t) fullShare X)
      ∗ (∃ X, owns (c : Thread nD τ) (st0_2 t) fullShare X) ∗ (∃ X, owns (c : Thread nD τ) (st0_3 t) fullShare X)
      ∗ (∃ X, owns (c : Thread nD τ) (st0_4 t) fullShare X) ∗ (∃ X, owns (c : Thread nD τ) (st0_5 t) fullShare X)
      ∗ (∃ X, owns (c : Thread nD τ) (st0_6 t) fullShare X))) := by
  unfold bodyAt0
  rw [show (dats m 0 c).Φ t.succ = (dats m 0 c).Φ t.castSucc from rfl,
    show (dats m 0 c).owesAt () t.succ = (dats m 0 c).owesAt () t.castSucc from rfl]
  iintro ⟨HΦ, Ho, ⟨%X0, H0⟩, ⟨%X1, H1⟩, ⟨%X2, H2⟩, ⟨%X3, H3⟩, ⟨%X4, H4⟩, ⟨%X5, H5⟩, ⟨%X6, H6⟩⟩
  iapply (body_triple c Set.univ (grid0.coords t) _ _ _ _ _ _ _ _ _ _ _ _ _ _ X0 X1 X2 X3 X4 X5 _)
  isplitl [H0]; · iexact H0
  isplitl [H1]; · iexact H1
  isplitl [H2]; · iexact H2
  isplitl [H3]; · iexact H3
  isplitl [H4]; · iexact H4
  isplitl [H5]; · iexact H5
  isplitl [H6]; · iexists X6; iexact H6
  iintro ⟨H0, H1, H2, H3, H4, H5, H6⟩
  isplitl [HΦ]; · iexact HΦ
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  iexists _; iexact H6

/-- The library's body obligation with every window forgotten. -/
theorem body_obligation (c : Dev nD) :
    BodyObligationLoose (dats (F := F) m 0 c) (defs₀ (F := F)) Variants.none () Set.univ allForgotten := fun t => by
  simp only [bigSep_W0]
  exact body_at m c t

set_option backward.isDefEq.respectTransparency.types false in
/-- The run: every weakly fair execution of @main terminates; every array an input window stages ends at its entry
    contents, every unscoped buffer no window stages at what the region found. -/
theorem run_main : θ_run defs (onTc (τ := τ) (main (F := F))) (s₀ m ρ)
    (Pipeline.RDat.FramePost cfg0 (fun c => (dats m 0 c).toRForget allForgotten) (V m)) :=
  Pipeline.RDat.θ_run_frame cfgs (0 : Fin 1) launch0 defs₀ Variants.none (fun c => (dats m 0 c).toRForget allForgotten) m ρ main
    (hbody := fun c => (body_obligation m c).toRForget) (hshare := fun c => (dats m 0 c).share_full fun _ => rfl)
    (howed := fun _ _ => rfl) (V := V m) (hmain := hmain m Variants.none) (hA := A_eq m) (hΦ := fun _ _ => rfl)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_main m ρ)
  have kept : ∀ w : Fin 7, (cfg0.win w).isOut = false →
      r.2.mem ((cfg0.spec w).arr.view.loc (c.tc : Thread nD τ)) = V m c (Pipeline.arrRef spec0 w) := fun w hw =>
    (Eq.mp (congrFun (RDat.ArrAt_in ((dats m 0 c).toRForget allForgotten) w hw cfg0.N) _) ((h c).1 w)).trans (A_eq m c w)
  exact ⟨((h c).2 main_arg0 (Pipeline.mem_restRefs_of main_arg0 (by decide) (by decide))).trans (V_main_arg0 m c),
    (kept 0 rfl).trans (V_main_arg1 m c), (kept 1 rfl).trans (V_main_arg2 m c),
    ((h c).2 main_arg3 (Pipeline.mem_restRefs_of main_arg3 (by decide) (by decide))).trans (V_main_arg3 m c),
    (kept 2 rfl).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

end Cert.Kernel.FrameRun

end
-- ==== Proof.KernelIdealBody.lean ====
/-
  The kernel body, run once on whole staging buffers, at any float instance: seven whole-buffer loads (the three
  row blocks, the two weight rows, the bias word, and a dead load of the result's buffer), one whole-buffer store.
  The result's buffer ends holding the store's value — the masked softmax of the row scores, as ONE pure function
  `scoreBlock` of what the six input buffers held — and the six input buffers end as they were.
-/
import proofs.«130472_j23003844837982_2_alg».proof.Proof.Gen.KernelIdeal.Frame
import proofs.«130472_j23003844837982_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Facts₀ Facts

variable {F : FTy → Type} [FloatOps F]

local notation "𝕄" => MT nD τ sig Unit (Elt F) ℕ (UR sig nD τ) ℕ

/-! ## The whole-buffer rectangles the body reads and writes through -/

abbrev rNei : Rect S512x32x128 := Rect.unit (s := S512x32x128) ![0, 0, 0] S512x32x128.size Facts₀.inb_S512x32x128_S512x32x128_0_0_0
abbrev rSub : Rect S512x128 := Rect.unit (s := S512x128) ![0, 0] S512x128.size Facts₀.inb_S512x128_S512x128_0_0
abbrev rRow : Rect S512x32 := Rect.unit (s := S512x32) ![0, 0] S512x32.size Facts₀.inb_S512x32_S512x32_0_0
abbrev rW : Rect S1x128 := Rect.unit (s := S1x128) ![0, 0] S1x128.size Facts₀.inb_S1x128_S1x128_0_0
abbrev rB : Rect S1x1 := Rect.unit (s := S1x1) ![0, 0] S1x1.size Facts₀.inb_S1x1_S1x1_0_0

/-- What the result's buffer holds after the body, from what the six input buffers hold: the one store, through the
    whole-buffer rectangle, of the score payload of the six whole-buffer loads. -/
def scoreBlock (x0 : Vec F S512x32x128 .f32) (x1 : Vec F S512x128 .f32) (x2 : Vec F S512x32 .f32)
    (x3 x4 : Vec F S1x128 .f32) (x5 : Vec F S1x1 .f32) : Vec F S512x32 .f32 :=
  View.canon [⟨rRow, k0_pay1 (View.ld x0 rNei) (View.ld x1 rSub) (View.ld x2 rRow) (View.ld x3 rW) (View.ld x4 rW) (View.ld x5 rB)⟩]

/-- The one store's rectangle is the whole buffer. -/
theorem store_covers (p0 : Vec F S512x32 .f32) (y : S512x32.Idx) :
    ∃ pc ∈ ([⟨rRow, p0⟩] : List (View.Piece (Elt F) S512x32 .f32)), y ∈ pc.1.set :=
  View.cover_of_tiled [⟨rRow, p0⟩] S512x32.size (by rfl) y

set_option maxHeartbeats 1000000 in
/-- The body's triple, on any whole staging memrefs. -/
theorem body_triple (c : Dev nD) (E : Set ℕ) (i : grid0.Coords)
    (a1 : Memref sig .tc .vmem S512x32x128 .f32) (h1 : a1.IsWhole) (a2 : Memref sig .tc .vmem S512x128 .f32) (h2 : a2.IsWhole)
    (a3 : Memref sig .tc .vmem S512x32 .f32) (h3 : a3.IsWhole) (a4 : Memref sig .tc .vmem S1x128 .f32) (h4 : a4.IsWhole)
    (a5 : Memref sig .tc .vmem S1x128 .f32) (h5 : a5.IsWhole) (a6 : Memref sig .tc .vmem S1x1 .f32) (h6 : a6.IsWhole)
    (a7 : Memref sig .tc .vmem S512x32 .f32) (h7 : a7.IsWhole)
    (x0 : Vec F S512x32x128 .f32) (x1 : Vec F S512x128 .f32) (x2 : Vec F S512x32 .f32)
    (x3 x4 : Vec F S1x128 .f32) (x5 : Vec F S1x1 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (scoreBlock x0 x1 x2 x3 x4 x5)) -∗ K ⟨⟩))
      ⊢ wp frame (wpE (defs₀ (F := F)) Variants.none c none) E (cc0__score_kernel i a1 h1 a2 h2 a3 h3 a4 h4 a5 h5 a6 h6 a7 h7) K := by
  simp only [cc0__score_kernel_eq_skeleton]; unfold cc0__score_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (store_covers _)

end Cert.KernelIdeal.Body

end
-- ==== Proof.ScoreSpec.lean ====
/-
  What both programs compute, as functions on the extended reals.

  For one node: every neighbour's score is the logistic of (the neighbour's row against the first half of the weight
  column, plus the node's sub-graph row against the second half, plus the bias), plus that neighbour's mask entry; the
  result is the softmax of the node's thirty-two scores, taken after subtracting their maximum (the maximum folded from
  the value the pattern 0xFF800000 denotes, which both programs spell).
-/
import Idealize.ShloMosaic.PureOps.Ideal
import Idealize.ShloMosaic.PureOps.Ideal.Laws
import Idealize.ShloMosaic.Lib.ValueIdx

noncomputable section

namespace Cert.ScoreSpec

open Idealize.ShloMosaic Idealize.ShloMosaic.ValueIdx

/-- The pre-mask score of one neighbour: logistic of the two inner products plus the bias. -/
def neighbourScore (nei sub wn ws : Fin 128 → EReal) (b : EReal) : EReal :=
  Ideal.logistic (((∑ h : Fin 128, nei h * wn h) + ∑ h : Fin 128, sub h * ws h) + b)

/-- The max-subtracted softmax of thirty-two scores, at position `k`; `lo` is the value the maximum is folded from. -/
def softmaxAt (lo : EReal) (sc : Fin 32 → EReal) (k : Fin 32) : EReal :=
  Ideal.div (Ideal.exp (sc k - (Finset.univ : Finset (Fin 32)).fold max lo sc))
    (∑ k' : Fin 32, Ideal.exp (sc k' - (Finset.univ : Finset (Fin 32)).fold max lo sc))

/-- The value the reductions' maximum starts from. -/
abbrev lowest : EReal := Ideal.ofBits .f32 0xFF800000#32

/-- One row of the result from one node's data: `nei k` the k-th neighbour's row, `sub` the sub-graph row, `msk` the mask row. -/
def nodeRow (nei : Fin 32 → Fin 128 → EReal) (sub : Fin 128 → EReal) (msk : Fin 32 → EReal) (wn ws : Fin 128 → EReal) (b : EReal)
    (k : Fin 32) : EReal :=
  softmaxAt lowest (fun k' => neighbourScore (nei k') sub wn ws b + msk k') k

/-- Row `h` of the first half of the weight column, and of the second half. -/
abbrev wRow0 (h : Fin 128) : (⟨2, ![256, 1]⟩ : Shape).Idx := ix2 ⟨h.val, by have := h.isLt; omega⟩ (0 : Fin 1)
abbrev wRow1 (h : Fin 128) : (⟨2, ![256, 1]⟩ : Shape).Idx := ix2 ⟨128 + h.val, by have := h.isLt; omega⟩ (0 : Fin 1)

/-- The whole result array as a function of the five argument arrays the programs read. -/
def scores (x1 : (⟨3, ![50000, 32, 128]⟩ : Shape).Idx → EReal) (x2 : (⟨2, ![50000, 128]⟩ : Shape).Idx → EReal)
    (x4 : (⟨2, ![50000, 32]⟩ : Shape).Idx → EReal) (x5 : (⟨2, ![256, 1]⟩ : Shape).Idx → EReal) (x6 : (⟨1, ![1]⟩ : Shape).Idx → EReal) :
    (⟨2, ![50000, 32]⟩ : Shape).Idx → EReal :=
  fun i => nodeRow (fun k h => x1 (ix3 (i 0) k h)) (fun h => x2 (ix2 (i 0) h)) (fun k => x4 (ix2 (i 0) k))
    (fun h => x5 (wRow0 h)) (fun h => x5 (wRow1 h)) (x6 (ix1 (0 : Fin 1))) (i 1)

end Cert.ScoreSpec

end
-- ==== Proof.KernelIdealPayload.lean ====
/-
  The body's arithmetic, read at one entry of the result block, on the extended reals: entry (r, k) of the stored block
  is the softmax row of row r's data — `ScoreSpec.nodeRow` of the neighbour block's row r, the sub-graph block's row r,
  the mask block's row r, the two weight rows and the bias word. Every entry of row r depends on row r of the three
  row blocks only: this is what makes the rows of an edge block that lie past the array's end harmless.
-/
import proofs.«130472_j23003844837982_2_alg».proof.Proof.Gen.KernelIdeal.Skeleton
import proofs.«130472_j23003844837982_2_alg».proof.Proof.ScoreSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.ValueIdx Idealize.ShloMosaic.Pipeline

/-! ## The lane reductions at an entry -/

/-- The sum over the last axis of a [512, 32, 128] vector, at (r, k). -/
theorem sum_hidden3 (src : FVec Ideal S512x32x128 .f32) (h : S512x32x128.Reduces [2] S512x32) (hφ : FKind.Formats .f32)
    (hacc : (0x00000000#32 : BitVec 32) = 0x00000000#32) (r : Fin 512) (k : Fin 32) :
    multiReduction .add [2] S512x32 src 0x00000000#32 h hφ hacc (ix2 r k) = ∑ l : Fin 128, src (ix3 r k l) :=
  (Ideal.multiReduction_add_single src _ h hφ hacc (ix2 r k)).trans
    (Finset.sum_congr rfl fun l _ => congrArg src (funext fun a => Fin.ext (by
      match a with | ⟨0, _⟩ => rfl | ⟨1, _⟩ => rfl | ⟨2, _⟩ => rfl)))

/-- The sum over the last axis of a [512, 128] vector, at r. -/
theorem sum_hidden2 (src : FVec Ideal S512x128 .f32) (h : S512x128.Reduces [1] S512) (hφ : FKind.Formats .f32)
    (hacc : (0x00000000#32 : BitVec 32) = 0x00000000#32) (r : Fin 512) :
    multiReduction .add [1] S512 src 0x00000000#32 h hφ hacc (ix1 r) = ∑ l : Fin 128, src (ix2 r l) :=
  (Ideal.multiReduction_add_single src _ h hφ hacc (ix1 r)).trans
    (Finset.sum_congr rfl fun l _ => congrArg src (funext fun a => Fin.ext (by
      match a with | ⟨0, _⟩ => rfl | ⟨1, _⟩ => rfl)))

/-- The sum over the neighbours of a [512, 32] vector, at r. -/
theorem sum_neighbours (src : FVec Ideal S512x32 .f32) (h : S512x32.Reduces [1] S512) (hφ : FKind.Formats .f32)
    (hacc : (0x00000000#32 : BitVec 32) = 0x00000000#32) (r : Fin 512) :
    multiReduction .add [1] S512 src 0x00000000#32 h hφ hacc (ix1 r) = ∑ k : Fin 32, src (ix2 r k) :=
  (Ideal.multiReduction_add_single src _ h hφ hacc (ix1 r)).trans
    (Finset.sum_congr rfl fun l _ => congrArg src (funext fun a => Fin.ext (by
      match a with | ⟨0, _⟩ => rfl | ⟨1, _⟩ => rfl)))

/-- The maximum over the neighbours of a [512, 32] vector, at r: the fold of `max` from the accumulator's value. -/
theorem max_neighbours (src : FVec Ideal S512x32 .f32) (h : S512x32.Reduces [1] S512) (hφ : FKind.Formats .f32)
    (hacc : (0xFF800000#32 : BitVec 32) = 0xFF800000#32) (r : Fin 512) :
    multiReduction .maximumf [1] S512 src 0xFF800000#32 h hφ hacc (ix1 r)
      = (Finset.univ : Finset (Fin 32)).fold max (Ideal.ofBits .f32 0xFF800000#32) (fun k => src (ix2 r k)) := by
  refine (Ideal.multiReduction_maximumf_single src 0xFF800000#32 h hφ hacc (ix1 r)).trans ?_
  have e : (src ∘ h.lift (ix1 r)) = fun k : Fin 32 => src (ix2 r k) :=
    funext fun k => congrArg src (funext fun a => Fin.ext (by match a with | ⟨0, _⟩ => rfl | ⟨1, _⟩ => rfl))
  rw [e]; rfl

/-! ## The layout operations at an entry -/

variable {α : Type}

/-- The first weight row, re-laid as [1, 1, 128] and broadcast over rows and neighbours, at (r, k, l), is its lane l. -/
theorem weight_row3 (v : S1x128.Idx → α) (h1 : S1x128.ShapeCasts S1x128) (h2 : S1x128.ShapeCasts S1x1x128)
    (h3 : S1x1x128.Broadcasts S512x32x128) (r : Fin 512) (k : Fin 32) (l : Fin 128) :
    broadcastTo S512x32x128 (shapeCast S1x1x128 (shapeCast S1x128 v h1) h2) h3 (ix3 r k l) = v (ix2 (0 : Fin 1) l) := by
  rw [shapeCast_self]
  refine (broadcastTo_apply _ h3 (ix3 r k l) (ix3 (0 : Fin 1) (0 : Fin 1) l) fun a => ?_).trans ?_
  · match a with
    | ⟨0, _⟩ => rfl
    | ⟨1, _⟩ => rfl
    | ⟨2, _⟩ => rfl
  · refine shapeCast_apply v h2 _ (ix2 (0 : Fin 1) l) ?_
    rw [Shape.rowMajor_val_two, Shape.rowMajor_val_three]
    show (0 : ℕ) * 128 + l.val = ((0 : ℕ) * 1 + 0) * 128 + l.val
    omega

/-- The second weight row broadcast over rows, at (r, l), is its lane l. -/
theorem weight_row2 (v : S1x128.Idx → α) (h1 : S1x128.ShapeCasts S1x128) (h2 : S1x128.Broadcasts S512x128) (r : Fin 512) (l : Fin 128) :
    broadcastTo S512x128 (shapeCast S1x128 v h1) h2 (ix2 r l) = v (ix2 (0 : Fin 1) l) := by
  rw [shapeCast_self]; exact broadcastTo_1b_ab_apply v h2 r l

/-- A per-row value, re-laid as a column and broadcast over the neighbours, at (r, k), is the value of row r. -/
theorem row_value (u : S512.Idx → α) (h1 : S512.ShapeCasts S512x1) (h2 : S512x1.Broadcasts S512x32) (r : Fin 512) (k : Fin 32) :
    broadcastTo S512x32 (shapeCast S512x1 u h1) h2 (ix2 r k) = u (ix1 r) := by
  refine (broadcastTo_apply _ h2 (ix2 r k) (ix2 r (0 : Fin 1)) fun a => ?_).trans ?_
  · match a with
    | ⟨0, _⟩ => rfl
    | ⟨1, _⟩ => rfl
  · refine shapeCast_apply u h1 _ (ix1 r) ?_
    rw [Shape.rowMajor_val_one, Shape.rowMajor_val_two]
    show r.val = r.val * 1 + 0
    omega

/-- The bias word broadcast over the block, at any entry, is the word. -/
theorem bias_word (v : S1x1.Idx → α) (h1 : S1x1.ShapeCasts S1x1) (h2 : S1x1.Broadcasts S512x32) (r : Fin 512) (k : Fin 32) :
    broadcastTo S512x32 (shapeCast S1x1 v h1) h2 (ix2 r k) = v (ix2 (0 : Fin 1) (0 : Fin 1)) := by
  rw [shapeCast_self]
  exact broadcastTo_apply _ h2 (ix2 r k) (ix2 (0 : Fin 1) (0 : Fin 1)) fun a => by
    match a with
    | ⟨0, _⟩ => rfl
    | ⟨1, _⟩ => rfl

/-! ## The payload, restated over named pieces

The reductions and the re-layings of the body, each as a function of its operand alone; the payload is then a short
composition of them with the pointwise operations, and each piece is read at an entry by one lemma. -/

/-- Sum over the hidden axis of a [512, 32, 128] vector. -/
def sumHidden3 (src : FVec Ideal S512x32x128 .f32) : FVec Ideal S512x32 .f32 :=
  multiReduction .add [2] S512x32 src 0x00000000#32 Facts₀.reduces_S512x32x128_S512x32 (.inl rfl) rfl
/-- Sum over the hidden axis of a [512, 128] vector. -/
def sumHidden2 (src : FVec Ideal S512x128 .f32) : FVec Ideal S512 .f32 :=
  multiReduction .add [1] S512 src 0x00000000#32 Facts₀.reduces_S512x128_S512 (.inl rfl) rfl
/-- Sum over the neighbours of a [512, 32] vector. -/
def sumNeighbours (src : FVec Ideal S512x32 .f32) : FVec Ideal S512 .f32 :=
  multiReduction .add [1] S512 src 0x00000000#32 Facts₀.reduces_S512x32_S512 (.inl rfl) rfl
/-- Maximum over the neighbours of a [512, 32] vector. -/
def maxNeighbours (src : FVec Ideal S512x32 .f32) : FVec Ideal S512 .f32 :=
  multiReduction .maximumf [1] S512 src 0xFF800000#32 Facts₀.reduces_S512x32_S512 (.inl rfl) rfl
/-- The first weight row over the whole neighbour block. -/
def overBlock3 (v : Vec Ideal S1x128 .f32) : FVec Ideal S512x32x128 .f32 :=
  broadcastTo S512x32x128 (shapeCast S1x1x128 (shapeCast S1x128 v Facts₀.shapeCasts_S1x128_S1x128) Facts₀.shapeCasts_S1x128_S1x1x128)
    Facts₀.broadcasts_S1x1x128_S512x32x128
/-- The second weight row over the whole sub-graph block. -/
def overBlock2 (v : Vec Ideal S1x128 .f32) : FVec Ideal S512x128 .f32 :=
  broadcastTo S512x128 (shapeCast S1x128 v Facts₀.shapeCasts_S1x128_S1x128) Facts₀.broadcasts_S1x128_S512x128
/-- A per-row value over the row's thirty-two neighbours. -/
def overNeighbours (u : FVec Ideal S512 .f32) : FVec Ideal S512x32 .f32 :=
  broadcastTo S512x32 (shapeCast S512x1 u Facts₀.shapeCasts_S512_S512x1) Facts₀.broadcasts_S512x1_S512x32
/-- The bias word over the whole result block. -/
def biasOver (v : Vec Ideal S1x1 .f32) : FVec Ideal S512x32 .f32 :=
  broadcastTo S512x32 (shapeCast S1x1 v Facts₀.shapeCasts_S1x1_S1x1) Facts₀.broadcasts_S1x1_S512x32

theorem sumHidden3_apply (src : FVec Ideal S512x32x128 .f32) (r : Fin 512) (k : Fin 32) :
    sumHidden3 src (ix2 r k) = ∑ l : Fin 128, src (ix3 r k l) := sum_hidden3 src _ _ rfl r k
theorem sumHidden2_apply (src : FVec Ideal S512x128 .f32) (r : Fin 512) :
    sumHidden2 src (ix1 r) = ∑ l : Fin 128, src (ix2 r l) := sum_hidden2 src _ _ rfl r
theorem sumNeighbours_apply (src : FVec Ideal S512x32 .f32) (r : Fin 512) :
    sumNeighbours src (ix1 r) = ∑ k : Fin 32, src (ix2 r k) := sum_neighbours src _ _ rfl r
theorem maxNeighbours_apply (src : FVec Ideal S512x32 .f32) (r : Fin 512) :
    maxNeighbours src (ix1 r) = (Finset.univ : Finset (Fin 32)).fold max (Ideal.ofBits .f32 0xFF800000#32) (fun k => src (ix2 r k)) :=
  max_neighbours src _ _ rfl r
theorem overBlock3_apply (v : Vec Ideal S1x128 .f32) (r : Fin 512) (k : Fin 32) (l : Fin 128) :
    overBlock3 v (ix3 r k l) = v (ix2 (0 : Fin 1) l) := weight_row3 v _ _ _ r k l
theorem overBlock2_apply (v : Vec Ideal S1x128 .f32) (r : Fin 512) (l : Fin 128) :
    overBlock2 v (ix2 r l) = v (ix2 (0 : Fin 1) l) := weight_row2 v _ _ r l
theorem overNeighbours_apply (u : FVec Ideal S512 .f32) (r : Fin 512) (k : Fin 32) :
    overNeighbours u (ix2 r k) = u (ix1 r) := row_value u _ _ r k
theorem biasOver_apply (v : Vec Ideal S1x1 .f32) (r : Fin 512) (k : Fin 32) :
    biasOver v (ix2 r k) = v (ix2 (0 : Fin 1) (0 : Fin 1)) := bias_word v _ _ r k

/-- The masked scores of the block. -/
def maskedScores (x0 : Vec Ideal S512x32x128 .f32) (x1 : Vec Ideal S512x128 .f32) (x2 : Vec Ideal S512x32 .f32)
    (x3 x4 : Vec Ideal S1x128 .f32) (x5 : Vec Ideal S1x1 .f32) : FVec Ideal S512x32 .f32 :=
  addf (logistic (addf (addf (sumHidden3 (mulf x0 (overBlock3 x3))) (overNeighbours (sumHidden2 (mulf x1 (overBlock2 x4))))) (biasOver x5))) x2

/-- The exponentials of the scores less their row maximum. -/
def shiftedExp (sc : FVec Ideal S512x32 .f32) : FVec Ideal S512x32 .f32 := exp (subf sc (overNeighbours (maxNeighbours sc)))

/-- The payload is the row-normalised shifted exponentials of the masked scores. -/
theorem pay_eq (x0 : Vec Ideal S512x32x128 .f32) (x1 : Vec Ideal S512x128 .f32) (x2 : Vec Ideal S512x32 .f32)
    (x3 x4 : Vec Ideal S1x128 .f32) (x5 : Vec Ideal S1x1 .f32) :
    k0_pay1 (F := Ideal) x0 x1 x2 x3 x4 x5
      = divf (shiftedExp (maskedScores x0 x1 x2 x3 x4 x5)) (overNeighbours (sumNeighbours (shiftedExp (maskedScores x0 x1 x2 x3 x4 x5)))) := rfl

/-! ## The payload at an entry -/

theorem maskedScores_apply (x0 : Vec Ideal S512x32x128 .f32) (x1 : Vec Ideal S512x128 .f32) (x2 : Vec Ideal S512x32 .f32)
    (x3 x4 : Vec Ideal S1x128 .f32) (x5 : Vec Ideal S1x1 .f32) (r : Fin 512) (k : Fin 32) :
    maskedScores x0 x1 x2 x3 x4 x5 (ix2 r k)
      = ScoreSpec.neighbourScore (fun l => x0 (ix3 r k l)) (fun l => x1 (ix2 r l)) (fun l => x3 (ix2 (0 : Fin 1) l))
          (fun l => x4 (ix2 (0 : Fin 1) l)) (x5 (ix2 (0 : Fin 1) (0 : Fin 1))) + x2 (ix2 r k) := by
  unfold maskedScores ScoreSpec.neighbourScore
  simp only [addf, logistic, mulf, sumHidden3_apply, sumHidden2_apply, overBlock3_apply, overBlock2_apply, overNeighbours_apply,
    biasOver_apply, Ideal.addf_def, Ideal.logistic_def, Ideal.mulf_def]

theorem shiftedExp_apply (sc : FVec Ideal S512x32 .f32) (r : Fin 512) (k : Fin 32) :
    shiftedExp sc (ix2 r k)
      = Ideal.exp (sc (ix2 r k) - (Finset.univ : Finset (Fin 32)).fold max ScoreSpec.lowest (fun k' => sc (ix2 r k'))) := by
  unfold shiftedExp ScoreSpec.lowest
  simp only [exp, subf, overNeighbours_apply, maxNeighbours_apply, Ideal.exp_def, Ideal.subf_def]

/-- Entry (r, k) of the stored block is the softmax row of row r's data. -/
theorem pay_apply (x0 : Vec Ideal S512x32x128 .f32) (x1 : Vec Ideal S512x128 .f32) (x2 : Vec Ideal S512x32 .f32)
    (x3 x4 : Vec Ideal S1x128 .f32) (x5 : Vec Ideal S1x1 .f32) (r : Fin 512) (k : Fin 32) :
    k0_pay1 (F := Ideal) x0 x1 x2 x3 x4 x5 (ix2 r k)
      = ScoreSpec.nodeRow (fun k' l => x0 (ix3 r k' l)) (fun l => x1 (ix2 r l)) (fun k' => x2 (ix2 r k'))
          (fun l => x3 (ix2 (0 : Fin 1) l)) (fun l => x4 (ix2 (0 : Fin 1) l)) (x5 (ix2 (0 : Fin 1) (0 : Fin 1))) k := by
  rw [pay_eq]
  unfold ScoreSpec.nodeRow ScoreSpec.softmaxAt
  simp only [divf, overNeighbours_apply, sumNeighbours_apply, shiftedExp_apply, maskedScores_apply, Ideal.divf_def]

end Cert.KernelIdeal.Payload

end
-- ==== Proof.KernelIdealBlocks.lean ====
/-
  What the staging buffers hold at a grid point, read at the rows that lie inside the arrays.

  Point t stages rows 512·t … 512·t + 511 of the three row arrays; at the last point only the first 336 of them exist,
  and the rest of each buffer holds words nothing names. A row r of the point's block with 512·t + r below 50000 is row
  512·t + r of the array, whatever the buffer held before the fetch. The two weight rows are the two halves of the weight
  column re-laid as rows by the host, and the bias block is the bias word. So entry (r, k) of what the body stores, for
  such a row, is entry (512·t + r, k) of `ScoreSpec.scores` of the argument arrays.
-/
import proofs.«130472_j23003844837982_2_alg».proof.Proof.Gen.KernelIdeal.Frame
import proofs.«130472_j23003844837982_2_alg».proof.Proof.KernelIdealPayload
import Idealize.ShloMosaic.Lib.StableHlo.Run

set_option maxRecDepth 16384

noncomputable section

namespace Cert.KernelIdeal.Blocks

open Cert.KernelIdeal Cert.KernelIdeal.Gen Cert.KernelIdeal.Payload
open Idealize.ShloMosaic Idealize.ShloMosaic.TcCoe Idealize.ShloMosaic.ValueIdx Idealize.ShloMosaic.Pipeline Idealize.SL.Sem
open Idealize.ShloMosaic.StableHlo

variable (m : (ℓ : Loc nD τ sig) → Buf (Elt Ideal) ℓ)

/-! ## The schedule's arithmetic, decided over the grid -/

/-- Window 0 (the neighbour rows): point t's block starts at row 512·t and spans every neighbour and lane; the rows it
    moves are those inside the array. -/
theorem geom0 : ∀ t : Fin cfg0.N, win0_0.index t (0 : Fin 3) = t.val ∧ win0_0.index t (1 : Fin 3) = 0 ∧ win0_0.index t (2 : Fin 3) = 0
    ∧ win0_0.xsize (grid0.coords t) (0 : Fin 3) = min 512 (50000 - t.val * 512)
    ∧ win0_0.xsize (grid0.coords t) (1 : Fin 3) = 32 ∧ win0_0.xsize (grid0.coords t) (2 : Fin 3) = 128 :=
  (by decide +kernel : ∀ t : Fin grid0.N, _)
/-- Window 1 (the sub-graph rows). -/
theorem geom1 : ∀ t : Fin cfg0.N, win0_1.index t (0 : Fin 2) = t.val ∧ win0_1.index t (1 : Fin 2) = 0
    ∧ win0_1.xsize (grid0.coords t) (0 : Fin 2) = min 512 (50000 - t.val * 512) ∧ win0_1.xsize (grid0.coords t) (1 : Fin 2) = 128 :=
  (by decide +kernel : ∀ t : Fin grid0.N, _)
/-- Window 2 (the mask rows). -/
theorem geom2 : ∀ t : Fin cfg0.N, win0_2.index t (0 : Fin 2) = t.val ∧ win0_2.index t (1 : Fin 2) = 0
    ∧ win0_2.xsize (grid0.coords t) (0 : Fin 2) = min 512 (50000 - t.val * 512) ∧ win0_2.xsize (grid0.coords t) (1 : Fin 2) = 32 :=
  (by decide +kernel : ∀ t : Fin grid0.N, _)
/-- Window 6 (the result rows). -/
theorem geom6 : ∀ t : Fin cfg0.N, win0_6.index t (0 : Fin 2) = t.val ∧ win0_6.index t (1 : Fin 2) = 0
    ∧ win0_6.xsize (grid0.coords t) (0 : Fin 2) = min 512 (50000 - t.val * 512) ∧ win0_6.xsize (grid0.coords t) (1 : Fin 2) = 32 :=
  (by decide +kernel : ∀ t : Fin grid0.N, _)
/-- Windows 3, 4, 5 (the weight rows and the bias word) sit at block (0, 0) at every point. -/
theorem geom345 : ∀ t : Fin cfg0.N, win0_3.index t (0 : Fin 2) = 0 ∧ win0_3.index t (1 : Fin 2) = 0
    ∧ win0_4.index t (0 : Fin 2) = 0 ∧ win0_4.index t (1 : Fin 2) = 0 ∧ win0_5.index t (0 : Fin 2) = 0 ∧ win0_5.index t (1 : Fin 2) = 0 :=
  (by decide +kernel : ∀ t : Fin grid0.N, _)

/-! ## The row blocks at a row inside the array -/

/-- The neighbour buffer after the fetch, at row r of the block, is row 512·t + r of the neighbour array. -/
theorem nei_entry (c : Dev nD) (t : Fin cfg0.N) (d : S512x32x128.Idx → Elt Ideal .f32) (r : Fin 512) (k : Fin 32) (l : Fin 128)
    (n : Fin 50000) (hn : n.val = t.val * 512 + r.val) :
    win0_0.fill (grid0.coords t) d (iblk m c 0 t) (ix3 r k l)
      = (m ((c : Thread nD τ).loc main_arg1) : S50000x32x128.Idx → Elt Ideal .f32) (ix3 n k l) := by
  obtain ⟨i0, i1, i2, x0, x1, x2⟩ := geom0 t
  have hnlt := n.isLt
  have hmv : win0_0.moved (grid0.coords t) (ix3 r k l) = true := (win0_0.moved_iff _ _).mpr fun a => by
    match a with
    | ⟨0, _⟩ => show r.val < win0_0.xsize (grid0.coords t) (0 : Fin 3); rw [x0]; omega
    | ⟨1, _⟩ => show k.val < win0_0.xsize (grid0.coords t) (1 : Fin 3); rw [x1]; exact k.isLt
    | ⟨2, _⟩ => show l.val < win0_0.xsize (grid0.coords t) (2 : Fin 3); rw [x2]; exact l.isLt
  unfold Window.fill
  rw [dif_pos hmv]
  unfold iblk
  rw [View.read_apply, ← V_main_arg1 m c]
  show V m c main_arg1 _ = V m c main_arg1 _
  congr 1
  funext a
  apply Fin.ext
  match a with
  | ⟨0, _⟩ => show win0_0.index t (0 : Fin 3) * 512 + 1 * r.val = n.val; rw [i0, hn]; omega
  | ⟨1, _⟩ => show win0_0.index t (1 : Fin 3) * 32 + 1 * k.val = k.val; rw [i1]; omega
  | ⟨2, _⟩ => show win0_0.index t (2 : Fin 3) * 128 + 1 * l.val = l.val; rw [i2]; omega

/-- The sub-graph buffer after the fetch, at row r, is row 512·t + r of the sub-graph array. -/
theorem sub_entry (c : Dev nD) (t : Fin cfg0.N) (d : S512x128.Idx → Elt Ideal .f32) (r : Fin 512) (l : Fin 128)
    (n : Fin 50000) (hn : n.val = t.val * 512 + r.val) :
    win0_1.fill (grid0.coords t) d (iblk m c 1 t) (ix2 r l)
      = (m ((c : Thread nD τ).loc main_arg2) : S50000x128.Idx → Elt Ideal .f32) (ix2 n l) := by
  obtain ⟨i0, i1, x0, x1⟩ := geom1 t
  have hnlt := n.isLt
  have hmv : win0_1.moved (grid0.coords t) (ix2 r l) = true := (win0_1.moved_iff _ _).mpr fun a => by
    match a with
    | ⟨0, _⟩ => show r.val < win0_1.xsize (grid0.coords t) (0 : Fin 2); rw [x0]; omega
    | ⟨1, _⟩ => show l.val < win0_1.xsize (grid0.coords t) (1 : Fin 2); rw [x1]; exact l.isLt
  unfold Window.fill
  rw [dif_pos hmv]
  unfold iblk
  rw [View.read_apply, ← V_main_arg2 m c]
  show V m c main_arg2 _ = V m c main_arg2 _
  congr 1
  funext a
  apply Fin.ext
  match a with
  | ⟨0, _⟩ => show win0_1.index t (0 : Fin 2) * 512 + 1 * r.val = n.val; rw [i0, hn]; omega
  | ⟨1, _⟩ => show win0_1.index t (1 : Fin 2) * 128 + 1 * l.val = l.val; rw [i1]; omega

/-- The mask buffer after the fetch, at row r, is row 512·t + r of the mask array. -/
theorem msk_entry (c : Dev nD) (t : Fin cfg0.N) (d : S512x32.Idx → Elt Ideal .f32) (r : Fin 512) (k : Fin 32)
    (n : Fin 50000) (hn : n.val = t.val * 512 + r.val) :
    win0_2.fill (grid0.coords t) d (iblk m c 2 t) (ix2 r k)
      = (m ((c : Thread nD τ).loc main_arg4) : S50000x32.Idx → Elt Ideal .f32) (ix2 n k) := by
  obtain ⟨i0, i1, x0, x1⟩ := geom2 t
  have hnlt := n.isLt
  have hmv : win0_2.moved (grid0.coords t) (ix2 r k) = true := (win0_2.moved_iff _ _).mpr fun a => by
    match a with
    | ⟨0, _⟩ => show r.val < win0_2.xsize (grid0.coords t) (0 : Fin 2); rw [x0]; omega
    | ⟨1, _⟩ => show k.val < win0_2.xsize (grid0.coords t) (1 : Fin 2); rw [x1]; exact k.isLt
  unfold Window.fill
  rw [dif_pos hmv]
  unfold iblk
  rw [View.read_apply, ← V_main_arg4 m c]
  show V m c main_arg4 _ = V m c main_arg4 _
  congr 1
  funext a
  apply Fin.ext
  match a with
  | ⟨0, _⟩ => show win0_2.index t (0 : Fin 2) * 512 + 1 * r.val = n.val; rw [i0, hn]; omega
  | ⟨1, _⟩ => show win0_2.index t (1 : Fin 2) * 32 + 1 * k.val = k.val; rw [i1]; omega

/-! ## The weight rows and the bias word -/

/-- The host lays the first half of the weight column out as a row: `main_v1` at (0, l) is the column's row l. -/
theorem v1_entry (c : Dev nD) (l : Fin 128) :
    (V m c main_v1 : S1x128.Idx → Elt Ideal .f32) (ix2 (0 : Fin 1) l)
      = (m ((c : Thread nD τ).loc main_arg5) : S256x1.Idx → Elt Ideal .f32) (ScoreSpec.wRow0 l) := by
  have e : (V m c main_v1 : S1x128.Idx → Elt Ideal .f32)
      = shapeCast S1x128 (extractStridedSlice S128x1 ![0, 0] (m ((c : Thread nD τ).loc main_arg5) : S256x1.Idx → Elt Ideal .f32)
          Facts₀.slices_S256x1_S128x1_0_0) Facts₀.shapeCasts_S128x1_S1x128 := by
    dsimp only [Gen.V, Gen.hostOps0]; after_results; rfl
  rw [e]
  refine (shapeCast_apply _ _ (ix2 (0 : Fin 1) l) (ix2 l (0 : Fin 1)) ?_).trans ?_
  · rw [Shape.rowMajor_val_two, Shape.rowMajor_val_two]
    show l.val * 1 + 0 = 0 * 128 + l.val
    omega
  · exact extractStridedSlice_apply ![0, 0] _ _ (ix2 l (0 : Fin 1)) (ScoreSpec.wRow0 l) fun a => by
      match a with
      | ⟨0, _⟩ => show l.val = 0 + l.val; omega
      | ⟨1, _⟩ => show (0 : ℕ) = 0 + 0; rfl

/-- Likewise the second half: `main_v3` at (0, l) is the column's row 128 + l. -/
theorem v3_entry (c : Dev nD) (l : Fin 128) :
    (V m c main_v3 : S1x128.Idx → Elt Ideal .f32) (ix2 (0 : Fin 1) l)
      = (m ((c : Thread nD τ).loc main_arg5) : S256x1.Idx → Elt Ideal .f32) (ScoreSpec.wRow1 l) := by
  have e : (V m c main_v3 : S1x128.Idx → Elt Ideal .f32)
      = shapeCast S1x128 (extractStridedSlice S128x1 ![128, 0] (m ((c : Thread nD τ).loc main_arg5) : S256x1.Idx → Elt Ideal .f32)
          Facts₀.slices_S256x1_S128x1_128_0) Facts₀.shapeCasts_S128x1_S1x128 := by
    dsimp only [Gen.V, Gen.hostOps0]; after_results; rfl
  rw [e]
  refine (shapeCast_apply _ _ (ix2 (0 : Fin 1) l) (ix2 l (0 : Fin 1)) ?_).trans ?_
  · rw [Shape.rowMajor_val_two, Shape.rowMajor_val_two]
    show l.val * 1 + 0 = 0 * 128 + l.val
    omega
  · exact extractStridedSlice_apply ![128, 0] _ _ (ix2 l (0 : Fin 1)) (ScoreSpec.wRow1 l) fun a => by
      match a with
      | ⟨0, _⟩ => show 128 + l.val = 128 + l.val; rfl
      | ⟨1, _⟩ => show (0 : ℕ) = 0 + 0; rfl

/-- The bias re-laid as [1, 1]: `main_v4` at (0, 0) is the bias word. -/
theorem v4_entry (c : Dev nD) :
    (V m c main_v4 : S1x1.Idx → Elt Ideal .f32) (ix2 (0 : Fin 1) (0 : Fin 1))
      = (m ((c : Thread nD τ).loc main_arg6) : S1.Idx → Elt Ideal .f32) (ix1 (0 : Fin 1)) := by
  have e : (V m c main_v4 : S1x1.Idx → Elt Ideal .f32)
      = shapeCast S1x1 (m ((c : Thread nD τ).loc main_arg6) : S1.Idx → Elt Ideal .f32) Facts₀.shapeCasts_S1_S1x1 := by
    dsimp only [Gen.V, Gen.hostOps0]; after_results; rfl
  rw [e]
  refine shapeCast_apply _ _ (ix2 (0 : Fin 1) (0 : Fin 1)) (ix1 (0 : Fin 1)) ?_
  rw [Shape.rowMajor_val_one, Shape.rowMajor_val_two]
  rfl

/-- Window 3's block is the whole of `main_v1`. -/
theorem wn_entry (c : Dev nD) (t : Fin cfg0.N) (l : Fin 128) :
    (iblk m c 3 t : S1x128.Idx → Elt Ideal .f32) (ix2 (0 : Fin 1) l)
      = (m ((c : Thread nD τ).loc main_arg5) : S256x1.Idx → Elt Ideal .f32) (ScoreSpec.wRow0 l) := by
  obtain ⟨i0, i1, -, -, -, -⟩ := geom345 t
  rw [← v1_entry m c l]
  unfold iblk
  rw [View.read_apply]
  show V m c main_v1 _ = V m c main_v1 _
  congr 1
  funext a
  apply Fin.ext
  match a with
  | ⟨0, _⟩ => show win0_3.index t (0 : Fin 2) * 1 + 1 * 0 = 0; rw [i0]
  | ⟨1, _⟩ => show win0_3.index t (1 : Fin 2) * 128 + 1 * l.val = l.val; rw [i1]; omega

/-- Window 4's block is the whole of `main_v3`. -/
theorem ws_entry (c : Dev nD) (t : Fin cfg0.N) (l : Fin 128) :
    (iblk m c 4 t : S1x128.Idx → Elt Ideal .f32) (ix2 (0 : Fin 1) l)
      = (m ((c : Thread nD τ).loc main_arg5) : S256x1.Idx → Elt Ideal .f32) (ScoreSpec.wRow1 l) := by
  obtain ⟨-, -, i0, i1, -, -⟩ := geom345 t
  rw [← v3_entry m c l]
  unfold iblk
  rw [View.read_apply]
  show V m c main_v3 _ = V m c main_v3 _
  congr 1
  funext a
  apply Fin.ext
  match a with
  | ⟨0, _⟩ => show win0_4.index t (0 : Fin 2) * 1 + 1 * 0 = 0; rw [i0]
  | ⟨1, _⟩ => show win0_4.index t (1 : Fin 2) * 128 + 1 * l.val = l.val; rw [i1]; omega

/-- Window 5's block is the whole of `main_v4`. -/
theorem b_entry (c : Dev nD) (t : Fin cfg0.N) :
    (iblk m c 5 t : S1x1.Idx → Elt Ideal .f32) (ix2 (0 : Fin 1) (0 : Fin 1))
      = (m ((c : Thread nD τ).loc main_arg6) : S1.Idx → Elt Ideal .f32) (ix1 (0 : Fin 1)) := by
  obtain ⟨-, -, -, -, i0, i1⟩ := geom345 t
  rw [← v4_entry m c]
  unfold iblk
  rw [View.read_apply]
  show V m c main_v4 _ = V m c main_v4 _
  congr 1
  funext a
  apply Fin.ext
  match a with
  | ⟨0, _⟩ => show win0_5.index t (0 : Fin 2) * 1 + 1 * 0 = 0; rw [i0]
  | ⟨1, _⟩ => show win0_5.index t (1 : Fin 2) * 1 + 1 * 0 = 0; rw [i1]

/-! ## The stored block at a row inside the array -/

/-- The specification of the whole result array, of the program's argument arrays. -/
abbrev spec (c : Dev nD) : S50000x32.Idx → Elt Ideal .f32 :=
  ScoreSpec.scores (m ((c : Thread nD τ).loc main_arg1)) (m ((c : Thread nD τ).loc main_arg2)) (m ((c : Thread nD τ).loc main_arg4))
    (m ((c : Thread nD τ).loc main_arg5)) (m ((c : Thread nD τ).loc main_arg6))

/-- Entry (r, k) of the payload of the point's buffers — the three row buffers holding anything past the array's end —
    for a row with 512·t + r = n below 50000, is entry (n, k) of the specification. -/
theorem stored_entry (c : Dev nD) (t : Fin cfg0.N) (d0 : S512x32x128.Idx → Elt Ideal .f32) (d1 : S512x128.Idx → Elt Ideal .f32)
    (d2 : S512x32.Idx → Elt Ideal .f32) (r : Fin 512) (k : Fin 32) (n : Fin 50000) (hn : n.val = t.val * 512 + r.val) :
    k0_pay1 (F := Ideal) (win0_0.fill (grid0.coords t) d0 (iblk m c 0 t)) (win0_1.fill (grid0.coords t) d1 (iblk m c 1 t))
        (win0_2.fill (grid0.coords t) d2 (iblk m c 2 t)) (iblk m c 3 t) (iblk m c 4 t) (iblk m c 5 t) (ix2 r k)
      = spec m c (ix2 n k) := by
  rw [pay_apply]
  show _ = ScoreSpec.nodeRow _ _ _ _ _ _ k
  simp only [nei_entry m c t d0 r _ _ n hn, sub_entry m c t d1 r _ n hn, msk_entry m c t d2 r _ n hn, wn_entry m c t, ws_entry m c t,
    b_entry m c t]

end Cert.KernelIdeal.Blocks

end
-- ==== Proof.KernelIdealRun.lean ====
/-
  The idealized kernel's run, with the result array named.

  Proof data: after the body at point t the three row buffers hold their blocks (filled out past the array's end with a
  word nothing reads), the weight and bias buffers their blocks, and the result's buffer the body's payload of those. The
  body obligation asks of the clipped windows only the rows inside the array; there the payload does not depend on what
  fills the rest (`Blocks.stored_entry`), and equals the specification's rows 512·t …. The write-backs' row ranges
  cover the fifty thousand rows, so the result array ends holding `ScoreSpec.scores` of the arguments.
-/
import proofs.«130472_j23003844837982_2_alg».proof.Proof.KernelIdealBody
import proofs.«130472_j23003844837982_2_alg».proof.Proof.KernelIdealBlocks

set_option maxRecDepth 16384

noncomputable section

namespace Cert.KernelIdeal.ValueRun

open Cert.KernelIdeal Cert.KernelIdeal.Gen Cert.KernelIdeal.Body Cert.KernelIdeal.Payload Cert.KernelIdeal.Blocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The stored block is the payload of the loaded blocks -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- Whole-buffer loads read the contents and the whole-buffer store leaves its value. -/
theorem scoreBlock_eq (x0 : Vec Ideal S512x32x128 .f32) (x1 : Vec Ideal S512x128 .f32) (x2 : Vec Ideal S512x32 .f32)
    (x3 x4 : Vec Ideal S1x128 .f32) (x5 : Vec Ideal S1x1 .f32) :
    scoreBlock x0 x1 x2 x3 x4 x5 = k0_pay1 x0 x1 x2 x3 x4 x5 := by
  unfold scoreBlock
  rw [View.canon_unit_zero zeros2]
  simp only [View.ld_unit_zero (S := S512x32x128) zeros3, View.ld_unit_zero (S := S512x128) zeros2,
    View.ld_unit_zero (S := S512x32) zeros2, View.ld_unit_zero (S := S1x128) zeros2, View.ld_unit_zero (S := S1x1) zeros2]

/-! ## The proof data -/

/-- The row buffers after the body at point t, named on every row: the block, and the zero word past the array's end. -/
def nei8 (c : Dev nD) (t : Fin cfg0.N) : S512x32x128.Idx → Elt Ideal .f32 :=
  win0_0.fill (grid0.coords t) (fun _ => Scalar.ofBits (F := Ideal) .f32 0#32) (iblk m c 0 t)
def sub8 (c : Dev nD) (t : Fin cfg0.N) : S512x128.Idx → Elt Ideal .f32 :=
  win0_1.fill (grid0.coords t) (fun _ => Scalar.ofBits (F := Ideal) .f32 0#32) (iblk m c 1 t)
def msk8 (c : Dev nD) (t : Fin cfg0.N) : S512x32.Idx → Elt Ideal .f32 :=
  win0_2.fill (grid0.coords t) (fun _ => Scalar.ofBits (F := Ideal) .f32 0#32) (iblk m c 2 t)
/-- The result's buffer after the body at point t. -/
def out8 (c : Dev nD) (t : Fin cfg0.N) : S512x32.Idx → Elt Ideal .f32 :=
  scoreBlock (nei8 m c t) (sub8 m c t) (msk8 m c t) (iblk m c 3 t) (iblk m c 4 t) (iblk m c 5 t)

def dats (_ : Fin 1) (c : Dev nD) : Dat τ (Elt Ideal) Unit ℕ (UR sig nD τ) ℕ cfg0 c where
  A w := V m c (Pipeline.arrRef spec0 w)
  after w t := match w with
    | ⟨0, _⟩ => nei8 m c t
    | ⟨1, _⟩ => sub8 m c t
    | ⟨2, _⟩ => msk8 m c t
    | ⟨3, _⟩ => iblk m c 3 t
    | ⟨4, _⟩ => iblk m c 4 t
    | ⟨5, _⟩ => iblk m c 5 t
    | ⟨6, _⟩ => out8 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = nei8 m c t := by dsimp only [dats]
theorem after_1 (c : Dev nD) (t : Fin cfg0.N) : (dats m 0 c).after 1 t = sub8 m c t := by dsimp only [dats]
theorem after_2 (c : Dev nD) (t : Fin cfg0.N) : (dats m 0 c).after 2 t = msk8 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = out8 m c t := by dsimp only [dats]

/-- What the body finds: the three row buffers just fetched — the block on the rows inside the array, anything elsewhere. -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]
/-- The weight and bias buffers hold their blocks at every point, fetched there or not. -/
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
/-- The result's buffer holds anything: every point writes it back. -/
theorem before_6 (c : Dev nD) (t : Fin cfg0.N) (d) : (dats m 0 c).before 6 t d = d :=
  (dats m 0 c).before_out_reset 6 rfl t (by
    by_cases h : t.val = 0
    · exact .inl h
    · exact .inr ⟨h, flush0_6 _⟩) d

/-! ## The stored rows inside the array -/

/-- The rows of the stored block that the write-back moves are the specification's rows 512·t …, whatever filled the
    row buffers past the array's end. -/
theorem cut_stored (c : Dev nD) (t : Fin cfg0.N) (d0 : S512x32x128.Idx → Elt Ideal .f32) (d1 : S512x128.Idx → Elt Ideal .f32)
    (d2 : S512x32.Idx → Elt Ideal .f32) :
    win0_6.cut (grid0.coords t) (scoreBlock (win0_0.fill (grid0.coords t) d0 (iblk m c 0 t)) (win0_1.fill (grid0.coords t) d1 (iblk m c 1 t))
        (win0_2.fill (grid0.coords t) d2 (iblk m c 2 t)) (iblk m c 3 t) (iblk m c 4 t) (iblk m c 5 t))
      = (win0_6.blk t).view.read (Elt Ideal) (spec m c) := by
  obtain ⟨i0, i1, x0, x1⟩ := geom6 t
  funext j
  have hj0 : (j 0).val < win0_6.xsize (grid0.coords t) (0 : Fin 2) := (j 0).isLt
  have hj1 : (j 1).val < win0_6.xsize (grid0.coords t) (1 : Fin 2) := (j 1).isLt
  rw [x0] at hj0; rw [x1] at hj1
  rw [scoreBlock_eq, View.read_apply]
  have e1 : win0_6.xinj (grid0.coords t) j = ix2 (⟨(j 0).val, by omega⟩ : Fin 512) (⟨(j 1).val, hj1⟩ : Fin 32) :=
    funext fun a => Fin.ext (by match a with | ⟨0, _⟩ => rfl | ⟨1, _⟩ => rfl)
  show k0_pay1 _ _ _ _ _ _ (win0_6.xinj (grid0.coords t) j) = _
  rw [e1]
  refine (stored_entry m c t d0 d1 d2 _ _ (⟨t.val * 512 + (j 0).val, by omega⟩ : Fin 50000) rfl).trans ?_
  congr 1
  funext a
  apply Fin.ext
  match a with
  | ⟨0, _⟩ => show t.val * 512 + (j 0).val = win0_6.index t (0 : Fin 2) * 512 + 1 * (j 0).val; rw [i0]; omega
  | ⟨1, _⟩ => show (j 1).val = win0_6.index t (1 : Fin 2) * 32 + 1 * (j 1).val; rw [i1]; omega

/-! ## The body obligation -/

/-- The body at a point: the buffers arrive as `before` says and leave as the loose obligation asks. -/
theorem body_at (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d)))
    ⊢ wp frame (wpE (defs₀ (F := Ideal)) Variants.none c none) Set.univ (bodyAt0 t) (fun _ =>
      iprop((dats m 0 c).Φ t.succ ∗ (dats m 0 c).owesAt () t.succ
      ∗ (∃ d, owns (c : Thread nD τ) (st0_0 t) fullShare (win0_0.fill (grid0.coords t) d (win0_0.cut (grid0.coords t) ((dats m 0 c).after 0 t))))
      ∗ (∃ d, owns (c : Thread nD τ) (st0_1 t) fullShare (win0_1.fill (grid0.coords t) d (win0_1.cut (grid0.coords t) ((dats m 0 c).after 1 t))))
      ∗ (∃ d, owns (c : Thread nD τ) (st0_2 t) fullShare (win0_2.fill (grid0.coords t) d (win0_2.cut (grid0.coords t) ((dats m 0 c).after 2 t))))
      ∗ owns (c : Thread nD τ) (st0_3 t) fullShare ((dats m 0 c).after 3 t)
      ∗ owns (c : Thread nD τ) (st0_4 t) fullShare ((dats m 0 c).after 4 t)
      ∗ owns (c : Thread nD τ) (st0_5 t) fullShare ((dats m 0 c).after 5 t)
      ∗ (∃ d, owns (c : Thread nD τ) (st0_6 t) fullShare (win0_6.fill (grid0.coords t) d (win0_6.cut (grid0.coords t) ((dats m 0 c).after 6 t)))))) := by
  unfold bodyAt0
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_0 m c t d0, before_1 m c t d1, before_2 m c t d2, before_3 m c t d3, before_4 m c t d4, before_5 m c t d5,
    before_6 m c t d6]
  iapply (body_triple c Set.univ (grid0.coords t) _ _ _ _ _ _ _ _ _ _ _ _ _ _
    (win0_0.fill (grid0.coords t) d0 (iblk m c 0 t)) (win0_1.fill (grid0.coords t) d1 (iblk m c 1 t))
    (win0_2.fill (grid0.coords t) d2 (iblk m c 2 t)) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  iintro ⟨H0, H1, H2, H3, H4, H5, H6⟩
  isplitl [HΦ]; · iexact HΦ
  isplitl [Ho]; · iexact Ho
  isplitl [H0]
  · iexists d0; unfold nei8; rw [Window.cut_fill]; iexact H0
  isplitl [H1]
  · iexists d1; unfold sub8; rw [Window.cut_fill]; iexact H1
  isplitl [H2]
  · iexists d2; unfold msk8; rw [Window.cut_fill]; iexact H2
  isplitl [H3]; · iexact H3
  isplitl [H4]; · iexact H4
  isplitl [H5]; · iexact H5
  iexists _
  rw [Window.fill_congr_cut win0_6 (grid0.coords t) (X := scoreBlock (win0_0.fill (grid0.coords t) d0 (iblk m c 0 t))
      (win0_1.fill (grid0.coords t) d1 (iblk m c 1 t)) (win0_2.fill (grid0.coords t) d2 (iblk m c 2 t)) (iblk m c 3 t) (iblk m c 4 t)
      (iblk m c 5 t)) (Y := out8 m c t) (by unfold out8 nei8 sub8 msk8; rw [cut_stored, cut_stored])]
  iexact H6

/-- The library's body obligation, in the form that asks of a clipped window only the rows its transfers move. -/
theorem body_obligation (c : Dev nD) : BodyObligationLoose (dats m 0 c) (defs₀ (F := Ideal)) Variants.none () Set.univ := fun t => by
  simp only [bigSep_W0]
  exact body_at m c t

/-! ## The run -/

set_option backward.isDefEq.respectTransparency.types false in
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- What each write-back writes is its block of the specification. -/
theorem flushed_eq (c : Dev nD) (t : Fin cfg0.N) :
    (dats m 0 c).flushed 6 t = ((cfg0.win 6).blk t).view.read (Elt Ideal) (spec m c) := by
  show win0_6.cut (grid0.coords t) ((dats m 0 c).after 6 t) = _
  rw [after_6]; unfold out8 nei8 sub8 msk8
  exact cut_stored m c t _ _ _

/-- Every row of the result array lies in the rows some point writes back: row n in point n / 512's. -/
theorem covered (i : S50000x32.Idx) : ∃ t : Fin cfg0.N, (cfg0.win 6).flush t = true ∧ i ∈ ((cfg0.win 6).blk t).view.set := by
  have h0 : (i 0 : Nat) < 50000 := (i 0).isLt
  have h1 : (i 1 : Nat) < 32 := (i 1).isLt
  obtain ⟨t, ht⟩ : ∃ t : Fin cfg0.N, t.val = (i 0).val / 512 :=
    ⟨⟨(i 0).val / 512, by show (i 0).val / 512 < grid0.N; rw [N_0]; omega⟩, rfl⟩
  obtain ⟨i0, i1, x0, x1⟩ := geom6 t
  refine ⟨t, flush0_6 t, ?_⟩
  show i ∈ ((View.whole main_v5).slice (win0_6.rect t)).set
  rw [View.set_slice_whole, Rect.mem_set_unit]
  intro a
  match a with
  | ⟨0, _⟩ =>
    show win0_6.index t (0 : Fin 2) * 512 ≤ (i 0 : Nat) ∧ (i 0 : Nat) < win0_6.index t (0 : Fin 2) * 512 + win0_6.xsize (grid0.coords t) (0 : Fin 2)
    rw [i0, x0]; omega
  | ⟨1, _⟩ =>
    show win0_6.index t (1 : Fin 2) * 32 ≤ (i 1 : Nat) ∧ (i 1 : Nat) < win0_6.index t (1 : Fin 2) * 32 + win0_6.xsize (grid0.coords t) (1 : Fin 2)
    rw [i1, x1]; omega

/-- The result array after the run is the specification. -/
theorem final (c : Dev nD) : (dats m 0 c).arrAt 6 cfg0.N = spec m c :=
  (dats m 0 c).arrAt_eq_of_cover 6 (spec m c) (fun t _ => flushed_eq m c t) covered

/-- The idealized kernel runs, ends with its result array at the specification of its arguments, and leaves the arguments. -/
theorem run : θ_run defs (onTc (τ := τ) (main (F := Ideal))) ⟨m, fun _ => 0, ρ⟩ (fun r => ∀ c : Dev nD,
      r.2.mem ((c.tc : Thread nD τ).loc main_v5) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h c).1 6).trans (final m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).1 2).trans (((dats m 0 c).arrAt_in 2 rfl _).trans ((A_eq m c 2).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.KernelIdeal.ValueRun

end
-- ==== Proof.ReferenceScores.lean ====
/-
  The reference program's result, stage by stage, is `ScoreSpec.scores` of its arguments.

  Read at node n and neighbour k: the two `dot_general`s are the two inner products against the halves of the weight
  column; jax's expansion of the logistic (negate, exponential, add one, divide one by it) is the logistic; the sum over
  the singleton axis adds the zero it starts from to one term; the maximum is folded from the pattern's value, and taking
  the maximum with that value once more changes nothing; the rest is the softmax as written.
-/
import proofs.«130472_j23003844837982_2_alg».proof.Proof.Gen.ReferenceIdeal.Read
import proofs.«130472_j23003844837982_2_alg».proof.Proof.ScoreSpec
import Idealize.ShloMosaic.PureOps.Reduce

noncomputable section

namespace Cert.ReferenceIdeal.Scores

open Cert.ReferenceIdeal Cert.ReferenceIdeal.Gen Cert.ReferenceIdeal.Read
open Idealize.ShloMosaic Idealize.ShloMosaic.ValueIdx

variable (x1 : (⟨S50000x32x128, .f32⟩ : BufTy).Contents (Elt Ideal)) (x2 : (⟨S50000x128, .f32⟩ : BufTy).Contents (Elt Ideal))
  (x4 : (⟨S50000x32, .f32⟩ : BufTy).Contents (Elt Ideal)) (x5 : (⟨S256x1, .f32⟩ : BufTy).Contents (Elt Ideal))
  (x6 : (⟨S1, .f32⟩ : BufTy).Contents (Elt Ideal))

/-- The pattern of 1.0 denotes 1. -/
theorem one_word : Ideal.ofBits .f32 0x3F800000#32 = 1 := by
  simp [Ideal.ofBits, Ideal.ieee, -EReal.coe_mul]; norm_num

/-! ## The composed index maps, at (n, k) -/

theorem lhs_nei (n : Fin 50000) (k : Fin 32) (l : Fin 128) : lidx_main_v2 (ix3 n k (0 : Fin 1)) l = ix3 n k l :=
  funext fun a => Fin.ext (by match a with | ⟨0, _⟩ => rfl | ⟨1, _⟩ => rfl | ⟨2, _⟩ => rfl)
theorem rhs_nei (n : Fin 50000) (k : Fin 32) (l : Fin 128) : idx_main_v0 (ridx_main_v2 (ix3 n k (0 : Fin 1)) l) = ScoreSpec.wRow0 l :=
  funext fun a => Fin.ext (by match a with | ⟨0, _⟩ => rfl | ⟨1, _⟩ => rfl)
theorem lhs_sub (n : Fin 50000) (k : Fin 32) (l : Fin 128) : lidx_main_v3 (idx_main_v4 (idx_main_v5 (ix3 n k (0 : Fin 1)))) l = ix2 n l :=
  funext fun a => Fin.ext (by match a with | ⟨0, _⟩ => rfl | ⟨1, _⟩ => rfl)
theorem rhs_sub (n : Fin 50000) (k : Fin 32) (l : Fin 128) :
    idx_main_v1 (ridx_main_v3 (idx_main_v4 (idx_main_v5 (ix3 n k (0 : Fin 1)))) l) = ScoreSpec.wRow1 l :=
  funext fun a => Fin.ext (by match a with | ⟨0, _⟩ => rfl | ⟨1, _⟩ => rfl)
theorem bias_idx (n : Fin 50000) (k : Fin 32) : idx_main_v7 (idx_main_v8 (ix3 n k (0 : Fin 1))) = ix1 (0 : Fin 1) :=
  funext fun a => Fin.ext (by match a with | ⟨0, _⟩ => rfl)
theorem one_term (n : Fin 50000) (k : Fin 32) (z : Fin 1) : idx_main_v16 (ix2 n k) z = ix3 n k (0 : Fin 1) :=
  funext fun a => Fin.ext (by
    have hz : z.val = 0 := by have := z.isLt; omega
    match a with | ⟨0, _⟩ => rfl | ⟨1, _⟩ => rfl | ⟨2, _⟩ => exact hz)
theorem row_of (n : Fin 50000) (k : Fin 32) : idx_main_v21 (idx_main_v22 (ix2 n k)) = ix1 n :=
  funext fun a => Fin.ext (by match a with | ⟨0, _⟩ => rfl)
theorem row_of' (n : Fin 50000) (k : Fin 32) : idx_main_v26 (idx_main_v27 (ix2 n k)) = ix1 n :=
  funext fun a => Fin.ext (by match a with | ⟨0, _⟩ => rfl)
theorem nb_of (n : Fin 50000) (k : Fin 32) : idx_main_v25 (ix1 n) k = ix2 n k :=
  funext fun a => Fin.ext (by match a with | ⟨0, _⟩ => rfl | ⟨1, _⟩ => rfl)

/-! ## The stages -/

/-- The affine score before the logistic. -/
theorem affine_at (n : Fin 50000) (k : Fin 32) :
    val_main_v9 (F := Ideal) x1 x2 x5 x6 (ix3 n k (0 : Fin 1))
      = ((∑ l : Fin 128, x1 (ix3 n k l) * x5 (ScoreSpec.wRow0 l)) + ∑ l : Fin 128, x2 (ix2 n l) * x5 (ScoreSpec.wRow1 l)) + x6 (ix1 (0 : Fin 1)) := by
  rw [val_main_v9_apply, val_main_v6_apply, val_main_v2_apply, val_main_v5_apply, val_main_v4_apply, val_main_v3_apply,
    val_main_v8_apply, val_main_v7_apply]
  simp only [val_main_v0_apply, val_main_v1_apply, lhs_nei, rhs_nei, lhs_sub, rhs_sub, bias_idx, Ideal.addf_def]

/-- One over one plus the exponential of the negated score is the logistic of the score. -/
theorem logistic_at (n : Fin 50000) (k : Fin 32) :
    val_main_v15 (F := Ideal) x1 x2 x5 x6 (ix3 n k (0 : Fin 1)) = Ideal.logistic (val_main_v9 (F := Ideal) x1 x2 x5 x6 (ix3 n k (0 : Fin 1))) := by
  rw [val_main_v15_apply, val_main_v14_apply, val_main_cst_0_apply, val_main_v13_apply, val_main_v12_apply, val_main_cst_apply,
    val_main_v11_apply, val_main_v10_apply]
  simp only [Ideal.hostDivf_def, Ideal.addf_def, Ideal.hostUnary_exp_def, Ideal.hostNegf_def, Ideal.negf_def, Ideal.ofBits_def, one_word]
  rfl

/-- The masked score of neighbour k of node n. -/
theorem masked_at (n : Fin 50000) (k : Fin 32) :
    val_main_v17 (F := Ideal) x1 x2 x4 x5 x6 (ix2 n k)
      = ScoreSpec.neighbourScore (fun l => x1 (ix3 n k l)) (fun l => x2 (ix2 n l)) (fun l => x5 (ScoreSpec.wRow0 l))
          (fun l => x5 (ScoreSpec.wRow1 l)) (x6 (ix1 (0 : Fin 1))) + x4 (ix2 n k) := by
  rw [val_main_v17_apply, val_main_v16_apply, val_main_cst_1_apply]
  simp only [one_term, Finset.sum_const, Finset.card_univ, Fintype.card_fin, one_smul, logistic_at, affine_at, Ideal.addf_def,
    Ideal.ofBits_def, Ideal.ofBits_zero_f32, zero_add]
  rfl

/-- The row maximum: folded from the pattern's value; the second maximum with that value is absorbed. -/
theorem rowmax_at (n : Fin 50000) :
    val_main_v20 (F := Ideal) x1 x2 x4 x5 x6 (ix1 n)
      = (Finset.univ : Finset (Fin 32)).fold max ScoreSpec.lowest (fun k => val_main_v17 (F := Ideal) x1 x2 x4 x5 x6 (ix2 n k)) := by
  rw [val_main_v20_apply, val_main_v19_apply, val_main_cst_3_apply]
  unfold val_main_v18
  rw [Host.reduce_eq_fold_single FloatOps.maximumf _ _ reducesTo_S50000x32_S50000_d1 (by decide) h_S_ (ix1 n), val_main_cst_2_apply]
  have e : (val_main_v17 (F := Ideal) x1 x2 x4 x5 x6 ∘ (by decide : S50000x32.Reduces [1] S50000).lift (ix1 n))
      = fun k : Fin 32 => val_main_v17 (F := Ideal) x1 x2 x4 x5 x6 (ix2 n k) :=
    funext fun k => congrArg (val_main_v17 (F := Ideal) x1 x2 x4 x5 x6)
      (funext fun a => Fin.ext (by match a with | ⟨0, _⟩ => rfl | ⟨1, _⟩ => rfl))
  rw [e]
  show max ScoreSpec.lowest ((Finset.univ : Finset (Fin 32)).fold max ScoreSpec.lowest _) = _
  exact max_eq_right ((Finset.le_fold_max _).mpr (Or.inl le_rfl))

/-- The shifted exponential. -/
theorem shifted_at (n : Fin 50000) (k : Fin 32) :
    val_main_v24 (F := Ideal) x1 x2 x4 x5 x6 (ix2 n k)
      = Ideal.exp (val_main_v17 (F := Ideal) x1 x2 x4 x5 x6 (ix2 n k) - val_main_v20 (F := Ideal) x1 x2 x4 x5 x6 (ix1 n)) := by
  rw [val_main_v24_apply, val_main_v23_apply, val_main_v22_apply, val_main_v21_apply, row_of]
  simp only [Ideal.hostUnary_exp_def, Ideal.subf_def]

/-- The reference's result is the specification. -/
theorem result_eq : val_main_v28 (F := Ideal) x1 x2 x4 x5 x6 = ScoreSpec.scores x1 x2 x4 x5 x6 := by
  funext i
  obtain ⟨n, k, rfl⟩ : ∃ (n : Fin 50000) (k : Fin 32), i = ix2 n k := ⟨i 0, i 1, eq_ix2 i⟩
  rw [val_main_v28_apply, val_main_v27_apply, val_main_v26_apply, row_of', val_main_v25_apply, val_main_cst_4_apply]
  show Ideal.div _ _ = ScoreSpec.nodeRow _ _ _ _ _ _ k
  unfold ScoreSpec.nodeRow ScoreSpec.softmaxAt
  simp only [nb_of, shifted_at, rowmax_at, masked_at, Ideal.ofBits_def, Ideal.ofBits_zero_f32, zero_add]

end Cert.ReferenceIdeal.Scores

end
-- ==== Proof.lean ====
/-
  The certificate's claim for the neighbour-scoring kernel against its jnp reference.

  Both idealized programs end with the result array at `ScoreSpec.scores` of the argument arrays: for each node, the
  softmax over its thirty-two neighbours of (logistic of the neighbour's affine score, plus the mask entry). On the
  kernel's side this is read off its pipelined run block by block (`KernelIdealRun`): the last block of each row window
  overhangs the arrays, and the rows past the end never reach the result array. On the reference's side it is the
  program's own term read one operation at a time (`ReferenceScores`). No law used needs a finite input, so the
  precondition is never opened. The word-level kernel's frame is its run with the buffers' contents forgotten; the
  idealization rewrote nothing, so nothing is owed for it.
-/
import proofs.«130472_j23003844837982_2_alg».proof.Defs
import proofs.«130472_j23003844837982_2_alg».proof.Proof.Gen.Kernel
import proofs.«130472_j23003844837982_2_alg».proof.Proof.Gen.KernelIdeal
import proofs.«130472_j23003844837982_2_alg».proof.Proof.Gen.ReferenceIdeal
import proofs.«130472_j23003844837982_2_alg».proof.Proof.Gen.Pre_finite_inputs
import proofs.«130472_j23003844837982_2_alg».proof.Proof.Gen.ReferenceIdeal.Run
import proofs.«130472_j23003844837982_2_alg».proof.Proof.Gen.ReferenceIdeal.Read
import proofs.«130472_j23003844837982_2_alg».proof.Proof.KernelFrame
import proofs.«130472_j23003844837982_2_alg».proof.Proof.KernelIdealRun
import proofs.«130472_j23003844837982_2_alg».proof.Proof.ReferenceScores
import Idealize.ShloMosaic.Adequacy
import Idealize.ShloMosaic.Init

noncomputable section

namespace Cert.Proof

open Idealize.ShloMosaic Idealize.SL.Sem

/-- The word-level kernel runs and leaves its arguments. -/
theorem frame_kernel : Cert.frame_Kernel (hKernel := Cert.Kernel.Gen.facts) (hPre_finite_inputs := Cert.Pre_finite_inputs.Gen.facts) :=
  fun m ρ _ => Cert.Kernel.FrameRun.frame (F := Bits) m ρ

/-- The idealized kernel runs and leaves its arguments: its value run with the result dropped. -/
theorem frame_kernelIdeal :
    Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.ValueRun.run m ρ)

/-- The reference runs and leaves its arguments: its run with the result dropped. -/
theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end at the specification of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Blocks.spec m c, Cert.KernelIdeal.ValueRun.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v28_eq, Cert.ReferenceIdeal.Scores.result_eq, (hagree c).2.1, (hagree c).2.2.1,
    (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
